-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x256x256 : Shape := ⟨4, ![1, 512, 256, 256]⟩
abbrev S_ : Shape := ⟨0, ![]⟩

class Facts : Prop where
  bcast_S_S1x512x256x256 : S_.BroadcastsInDim S1x512x256x256 (![] : Fin 0 → Fin S1x512x256x256.rank)
  reducesTo_S1x512x256x256_S_d0_1_2_3 : S1x512x256x256.ReducesTo [0, 1, 2, 3] S_
  h_S_ : 0 < S_.numel

variable [Facts]

def fn {F : FTy → Type} [FloatOps F] (main_arg0 : FVec F S1x512x256x256 .f32) : IVec S_ 1 :=
  let main_v0 : FVec F S1x512x256x256 .f32 := Host.absf main_arg0
  let main_cst : FVec F S_ .f32 := constant S_ .f32 0x7F800000#32
  let main_v1 : FVec F S1x512x256x256 .f32 := broadcastInDim S1x512x256x256 ![] bcast_S_S1x512x256x256 main_cst
  let main_v2 : IVec S1x512x256x256 1 := cmpf .olt main_v0 main_v1
  let main_c : IVec S_ 1 := constantI S_ 1 1#1
  let main_v3 : IVec S_ 1 := (fun x v => Host.reduce IntOp.andi x v reducesTo_S1x512x256x256_S_d0_1_2_3 h_S_) main_v2 main_c
  main_v3
-- ==== Kernel.lean ====
abbrev S1x512x256x256 : Shape := ⟨4, ![1, 512, 256, 256]⟩
abbrev S512x256x256 : Shape := ⟨3, ![512, 256, 256]⟩
abbrev S512x65536 : Shape := ⟨2, ![512, 65536]⟩
abbrev S2x512x512 : Shape := ⟨3, ![2, 512, 512]⟩
abbrev S512x4096 : Shape := ⟨2, ![512, 4096]⟩
abbrev S1x512x512 : Shape := ⟨3, ![1, 512, 512]⟩
abbrev S512x512 : Shape := ⟨2, ![512, 512]⟩
abbrev S1x1x512x512 : Shape := ⟨4, ![1, 1, 512, 512]⟩

abbrev nBuf : Space → Nat
  | .hbm => 10
  | .vmem => 5
  | .smem => 0
  | _ => 0

abbrev bufTy : (tb : Table) → Fin (tcTables nBuf tb) → BufTy
  | .hbm, ⟨0, _⟩ => ⟨S1x512x256x256, .f32⟩
  | .hbm, ⟨1, _⟩ => ⟨S512x256x256, .f32⟩
  | .hbm, ⟨2, _⟩ => ⟨S512x65536, .f32⟩
  | .hbm, ⟨3, _⟩ => ⟨S2x512x512, .f32⟩
  | .hbm, ⟨4, _⟩ => ⟨S1x512x512, .f32⟩
  | .hbm, ⟨5, _⟩ => ⟨S512x512, .f32⟩
  | .hbm, ⟨6, _⟩ => ⟨S1x512x512, .f32⟩
  | .hbm, ⟨7, _⟩ => ⟨S512x512, .f32⟩
  | .hbm, ⟨8, _⟩ => ⟨S512x512, .f32⟩
  | .hbm, ⟨9, _⟩ => ⟨S1x1x512x512, .f32⟩
  | .local _ .vmem, ⟨0, _⟩ => ⟨S512x4096, .f32⟩
  | .local _ .vmem, ⟨1, _⟩ => ⟨S512x4096, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | _, _ => ⟨S1x512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S1x512x256x256_S512x256x256 : S1x512x256x256.ShapeCasts S512x256x256
  shapeCasts_S512x256x256_S512x65536 : S512x256x256.ShapeCasts S512x65536
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  shapeCasts_S512x512_S1x512x512 : S512x512.ShapeCasts S1x512x512
  inb_S1x512x512_S1x512x512_0_0_0 : ∀ a, (![0, 0, 0] : Fin 3 → Nat) a + S1x512x512.size a ≤ S1x512x512.size a
  h_S1x512x512 : 0 < S1x512x512.numel
  slices_S2x512x512_S1x512x512_0_0_0 : S2x512x512.Slices ![0, 0, 0] S1x512x512
  shapeCasts_S1x512x512_S512x512 : S1x512x512.ShapeCasts S512x512
  slices_S2x512x512_S1x512x512_1_0_0 : S2x512x512.Slices ![1, 0, 0] S1x512x512
  bcast_S512x512_S1x1x512x512_2_3 : S512x512.BroadcastsInDim S1x1x512x512 (![2, 3] : Fin 2 → Fin S1x1x512x512.rank)
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x65536.size a
  hwx0_0 : ∀ i : grid0.Coords, EltTy.bits .f32 = 32 ∨ (Rect.block (s := S512x65536) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S1x512x256x256 : Shape := ⟨4, ![1, 512, 256, 256]⟩
abbrev S512x256x256 : Shape := ⟨3, ![512, 256, 256]⟩
abbrev S512x65536 : Shape := ⟨2, ![512, 65536]⟩
abbrev S65536x512 : Shape := ⟨2, ![65536, 512]⟩
abbrev S512x512 : Shape := ⟨2, ![512, 512]⟩
abbrev S1x1x512x512 : Shape := ⟨4, ![1, 1, 512, 512]⟩

abbrev nBuf : Space → Nat
  | .hbm => 6
  | .vmem => 0
  | .smem => 0
  | _ => 0

abbrev bufTy : (tb : Table) → Fin (tcTables nBuf tb) → BufTy
  | .hbm, ⟨0, _⟩ => ⟨S1x512x256x256, .f32⟩
  | .hbm, ⟨1, _⟩ => ⟨S512x256x256, .f32⟩
  | .hbm, ⟨2, _⟩ => ⟨S512x65536, .f32⟩
  | .hbm, ⟨3, _⟩ => ⟨S65536x512, .f32⟩
  | .hbm, ⟨4, _⟩ => ⟨S512x512, .f32⟩
  | .hbm, ⟨5, _⟩ => ⟨S1x1x512x512, .f32⟩
  | _, _ => ⟨S1x512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]

class Facts₀ : Prop where
  shapeCasts_S1x512x256x256_S512x256x256 : S1x512x256x256.ShapeCasts S512x256x256
  shapeCasts_S512x256x256_S512x65536 : S512x256x256.ShapeCasts S512x65536
  transposes_S512x65536_S65536x512_1_0 : S512x65536.Transposes [1, 0] S65536x512
  bcast_S512x512_S1x1x512x512_2_3 : S512x512.BroadcastsInDim S1x1x512x512 (![2, 3] : Fin 2 → Fin S1x1x512x512.rank)
  dot_S512x65536_S65536x512_S512x512_1_0_0_1_n_n_wf : DotDims.WF S512x65536 S65536x512 S512x512 [1] [0] [0] [1] [] []

variable [Facts₀]

def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf

class Facts : Prop extends Facts₀ where

variable [Facts]
-- ==== Proof.GramStep.lean ====
/-
  One grid step's arithmetic, read entry by entry over the extended reals.

  The kernel body works on a block `x` of 4096 columns of all 512 rows and on the 512 × 512 accumulator `acc`:
  it narrows the block to bf16 (the identity on extended reals), multiplies the block by its own transpose into a
  zero matrix — entry (p, q) of that product is the sum over the block's 4096 columns k of x(p,k) · x(q,k) — and adds
  the product to the accumulator.  At the first step of each half the accumulator is first set to zero, and at the
  last step it is copied, with a leading unit axis, into the output block.
-/
import proofs.«109532_j18614388261662_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.GramStep

open Idealize.ShloMosaic Idealize.ShloMosaic.ValueIdx Cert.KernelIdeal Cert.KernelIdeal.Gen

/-- The block product's dimension record: both operands are the block, contracted along its columns. -/
abbrev dd : DotDims S512x4096 S512x4096 S512x512 := dot_S512x4096_S512x4096_S512x512_1_1_0_0_n_n

theorem lhs_row (i : S512x512.Idx) (r : dd.contr.Idx) : (dd.lhsIdx i r 0).val = (i 0).val := by
  unfold DotDims.lhsIdx
  rw [dif_neg (show ¬(0 : Fin S512x4096.rank) ∈ dd.lhsBatch by decide),
    dif_pos (show (0 : Fin S512x4096.rank) ∈ dd.lhsNonContracting by decide)]
  rfl
theorem lhs_col (i : S512x512.Idx) (r : dd.contr.Idx) : (dd.lhsIdx i r 1).val = (r ⟨0, by decide⟩).val :=
  dd.lhsIdx_val_of_single rfl i r
theorem rhs_row (i : S512x512.Idx) (r : dd.contr.Idx) : (dd.rhsIdx i r 0).val = (i 1).val := by
  unfold DotDims.rhsIdx
  rw [dif_neg (show ¬(0 : Fin S512x4096.rank) ∈ dd.rhsBatch by decide),
    dif_pos (show (0 : Fin S512x4096.rank) ∈ dd.rhsNonContracting by decide)]
  rfl
theorem rhs_col (i : S512x512.Idx) (r : dd.contr.Idx) : (dd.rhsIdx i r 1).val = (r ⟨0, by decide⟩).val :=
  dd.rhsIdx_val_of_single rfl i r

/-- Entry (p, q) of the block times its own transpose, into zeros: the sum over the block's columns. -/
theorem selfProduct_apply (x : FVec Ideal S512x4096 .bf16) (p q : Fin 512) :
    matmul dd none x x (constant (F := Ideal) S512x512 .f32 0x00000000#32) (ix2 p q)
      = ∑ k : Fin 4096, x (ix2 p k) * x (ix2 q k) := by
  show FloatOps.matmul dd none x x (constant (F := Ideal) S512x512 .f32 0x00000000#32) (ix2 p q) = _
  rw [Ideal.matmul_constant_zero_apply, ← Equiv.sum_comp (contrEquiv1 dd 4096 rfl rfl).symm]
  refine Finset.sum_congr rfl fun k _ => ?_
  have hk := contrEquiv1_symm_val dd 4096 rfl rfl k
  have el : dd.lhsIdx (ix2 p q) ((contrEquiv1 dd 4096 rfl rfl).symm k) = ix2 p k := funext fun a => Fin.ext (by
    match a with
    | ⟨0, _⟩ => exact lhs_row _ _
    | ⟨1, _⟩ => exact (lhs_col _ _).trans hk)
  have er : dd.rhsIdx (ix2 p q) ((contrEquiv1 dd 4096 rfl rfl).symm k) = ix2 q k := funext fun a => Fin.ext (by
    match a with
    | ⟨0, _⟩ => exact rhs_row _ _
    | ⟨1, _⟩ => exact (rhs_col _ _).trans hk)
  rw [el, er]

/-- The reset stores zero everywhere. -/
theorem reset_apply (j : S512x512.Idx) : k0_pay1 (F := Ideal) j = 0 := by
  unfold k0_pay1
  rw [shapeCast_self]
  show Ideal.ofBits .f32 0x00000000#32 = 0
  exact Ideal.ofBits_zero_f32

/-- One step: the accumulator's entry (p, q) grows by the block's sum of x(p,k) · x(q,k). -/
theorem step_apply (x : Vec Ideal S512x4096 .f32) (acc : Vec Ideal S512x512 .f32) (p q : Fin 512) :
    k0_pay2 (F := Ideal) x acc (ix2 p q) = acc (ix2 p q) + ∑ k : Fin 4096, x (ix2 p k) * x (ix2 q k) := by
  unfold k0_pay2
  rw [shapeCast_self, shapeCast_self]
  show acc (ix2 p q) + matmul dd none _ _ (constant (F := Ideal) S512x512 .f32 0x00000000#32) (ix2 p q) = _
  rw [selfProduct_apply]
  rfl

/-- The copy into the output block only adds a leading unit axis. -/
theorem copy_apply {F : FTy → Type} [FloatOps F] (v : Vec F S512x512 .f32) (j : S1x512x512.Idx) :
    k0_pay3 (F := F) v j = v (ix2 (j 1) (j 2)) := by
  unfold k0_pay3
  exact (shapeCast_addUnit_apply ![512, 512] v shapeCasts_S512x512_S1x512x512 j).trans
    (congrArg v (funext fun a => by match a with | ⟨0, _⟩ => rfl | ⟨1, _⟩ => rfl))

end Cert.KernelIdeal.GramStep

end
-- ==== Proof.GramCases.lean ====
/-
  What each control case of the kernel body leaves behind, as values.

  The body has three cases over the grid's inner coordinate k: the first step of a half (k = 0: the accumulator is
  reset to zero and then takes one step), a middle step (the accumulator takes one step from what the step before
  left), and the last step (k = 7: one more step, and the accumulator is copied into the output block).  In every
  case the accumulator ends at "one step" applied to the block and to what it held — zero in the first case —, and
  in the last case the output block is the copy of that.
-/
import proofs.«109532_j18614388261662_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.GramCases
open Cert.KernelIdeal Cert.KernelIdeal.Gen
variable {F : FTy → Type} [FloatOps F]

/-- Every store and load of the body starts at the origin of its buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves one step of the block over what the accumulator held. -/
theorem acc_B (c : Dev nD) (i : grid0.Coords) (a2 : Memref sig .tc .vmem S512x4096 .f32) (h2 : a2.IsWhole)
    (a3 : Memref sig .tc .vmem S1x512x512 .f32) (h3 : a3.IsWhole) (a4 : Memref sig .tc .vmem S512x512 .f32) (h4 : a4.IsWhole)
    (hc0 : ¬cond0_0 i) (hc1 : ¬cond0_1 i) (x : Vec F S512x4096 .f32) (xs : Vec F S512x512 .f32) :
    sout0_B_0 c i a2 h2 a3 h3 a4 h4 hc0 hc1 x xs = k0_pay2 x xs := by
  unfold sout0_B_0
  rw [View.read_writes_eq_canon _ _ _ (scover0_B_0 c i a2 h2 a3 h3 a4 h4 hc0 hc1 x xs)]
  unfold kernelRun0_B
  dsimp only
  rw [View.canon_unit_zero hz2]
  simp only [View.readAt_eq_ld, h2.read_unread, h4.read_unread, View.ld_unit_zero (S := S512x4096) hz2,
    View.ld_unit_zero (S := S512x512) hz2]

/-- The first step of a half leaves one step of the block over the zero matrix. -/
theorem acc_A (c : Dev nD) (i : grid0.Coords) (a2 : Memref sig .tc .vmem S512x4096 .f32) (h2 : a2.IsWhole)
    (a3 : Memref sig .tc .vmem S1x512x512 .f32) (h3 : a3.IsWhole) (a4 : Memref sig .tc .vmem S512x512 .f32) (h4 : a4.IsWhole)
    (hc0 : cond0_0 i) (hc1 : ¬cond0_1 i) (x : Vec F S512x4096 .f32) :
    sout0_A_0 c i a2 h2 a3 h3 a4 h4 hc0 hc1 x = k0_pay2 x k0_pay1 := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S512x512) hz2, View.readCov_unit_zero (S := S512x512) _ hz2]
  simp only [View.readAt_eq_ld, h2.read_unread, View.ld_unit_zero (S := S512x4096) hz2]

/-- The last step leaves in the output block the copy of one step over what the accumulator held. -/
theorem out_C (c : Dev nD) (i : grid0.Coords) (a2 : Memref sig .tc .vmem S512x4096 .f32) (h2 : a2.IsWhole)
    (a3 : Memref sig .tc .vmem S1x512x512 .f32) (h3 : a3.IsWhole) (a4 : Memref sig .tc .vmem S512x512 .f32) (h4 : a4.IsWhole)
    (hc0 : ¬cond0_0 i) (hc1 : cond0_1 i) (x : Vec F S512x4096 .f32) (xs : Vec F S512x512 .f32) :
    out0_C_1 c i a2 h2 a3 h3 a4 h4 hc0 hc1 x xs = k0_pay3 (k0_pay2 x xs) := by
  unfold out0_C_1
  rw [View.read_writes_eq_canon _ _ _ (cover0_C_1 c i a2 h2 a3 h3 a4 h4 hc0 hc1 x xs)]
  unfold kernelRun0_C
  dsimp only
  sl_unfold_words
  rw [View.canon_unit_zero hz3, View.readCov_unit_zero (S := S512x512) _ hz2]
  simp only [View.readAt_eq_ld, h2.read_unread, h4.read_unread, View.ld_unit_zero (S := S512x4096) hz2,
    View.ld_unit_zero (S := S512x512) hz2]

/-- The last step leaves the accumulator as a middle step does. -/
theorem acc_C (c : Dev nD) (i : grid0.Coords) (a2 : Memref sig .tc .vmem S512x4096 .f32) (h2 : a2.IsWhole)
    (a3 : Memref sig .tc .vmem S1x512x512 .f32) (h3 : a3.IsWhole) (a4 : Memref sig .tc .vmem S512x512 .f32) (h4 : a4.IsWhole)
    (hc0 : ¬cond0_0 i) (hc1 : cond0_1 i) (x : Vec F S512x4096 .f32) (xs : Vec F S512x512 .f32) :
    sout0_C_0 c i a2 h2 a3 h3 a4 h4 hc0 hc1 x xs = k0_pay2 x xs := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz2]
  simp only [View.readAt_eq_ld, h2.read_unread, h4.read_unread, View.ld_unit_zero (S := S512x4096) hz2,
    View.ld_unit_zero (S := S512x512) hz2]

end Cert.KernelIdeal.GramCases
end
-- ==== Proof.GramSpec.lean ====
/-
  The Gram matrix of the rows of a 512 × 65536 array over the extended reals, and the one law the certificate rests on.

  For a fixed pair of rows (p, q) write f k = X(p,k) · X(q,k).  The reference sums f over all 65536 columns at once.
  The kernel cuts the columns into 16 consecutive blocks of 4096, sums f over each block, adds the blocks 0..7 into
  one accumulator and the blocks 8..15 into another (each starting from zero and adding one block at a time), and
  finally adds the two accumulators.  Addition on the extended reals is commutative and associative with 0 as its
  identity (they form a commutative monoid: no subtraction, no cancellation is used), so the two groupings agree —
  whatever the entries are, infinite ones included.
-/
import Mathlib.Algebra.BigOperators.Group.Finset.Basic
import Mathlib.Algebra.BigOperators.Fin

namespace Cert.GramSpec

open Finset

variable {M : Type} [AddCommMonoid M]

/-- The sum of `f` over block `n` of width `B`: the columns `n·B, …, n·B + B − 1`. -/
def blockSum (B : ℕ) (f : ℕ → M) (n : ℕ) : M := ∑ j ∈ range B, f (n * B + j)

/-- Summing the first `N` blocks of width `B` is summing the first `N·B` columns. -/
theorem sum_blocks (B : ℕ) (f : ℕ → M) : ∀ N : ℕ, ∑ n ∈ range N, blockSum B f n = ∑ k ∈ range (N * B), f k
  | 0 => by simp
  | N + 1 => by
    rw [sum_range_succ, sum_blocks B f N, Nat.succ_mul, sum_range_add]
    rfl

/-- The partial sum the accumulator holds after the `r + 1` blocks `8h, …, 8h + r` of half `h`. -/
def accSum (B : ℕ) (f : ℕ → M) (h r : ℕ) : M := ∑ i ∈ range (r + 1), blockSum B f (8 * h + i)

theorem accSum_zero (B : ℕ) (f : ℕ → M) (h : ℕ) : accSum B f h 0 = blockSum B f (8 * h) := by
  simp [accSum]

theorem accSum_succ (B : ℕ) (f : ℕ → M) (h r : ℕ) :
    accSum B f h (r + 1) = accSum B f h r + blockSum B f (8 * h + (r + 1)) := by
  unfold accSum; rw [sum_range_succ]

/-- The two finished accumulators (eight blocks each) add up to the sum over all sixteen blocks. -/
theorem two_halves (B : ℕ) (f : ℕ → M) : accSum B f 0 7 + accSum B f 1 7 = ∑ n ∈ range 16, blockSum B f n := by
  show ∑ i ∈ range 8, blockSum B f (8 * 0 + i) + ∑ i ∈ range 8, blockSum B f (8 * 1 + i)
    = ∑ n ∈ range (8 + 8), blockSum B f n
  rw [sum_range_add (fun n => blockSum B f n) 8 8]
  simp only [Nat.mul_zero, Nat.zero_add, Nat.mul_one]

/-- The kernel's grouping is the reference's: two halves of eight blocks of `B` columns are the first `16·B` columns. -/
theorem halves_eq_total (B : ℕ) (f : ℕ → M) : accSum B f 0 7 + accSum B f 1 7 = ∑ k ∈ range (16 * B), f k := by
  rw [two_halves, sum_blocks]

end Cert.GramSpec
-- ==== Proof.GramColumns.lean ====
/-
  The columns of the 512 × 65536 array numbered by natural numbers, so that the block law of sums applies.

  For rows p and q the products X(p,k) · X(q,k), k = 0, 1, 2, …, form a sequence of extended reals (set to 0 past
  the last column, where nothing ever reads it).  The reference's entry (p, q) is the sum of its first 65536 terms;
  the sum over block n of 4096 columns is the sum of its terms n·4096, …, n·4096 + 4095.
-/
import proofs.«109532_j18614388261662_1_alg».proof.Proof.GramSpec
import Idealize.ShloMosaic.PureOps.Ideal
import Idealize.ShloMosaic.Lib.ValueIdx

noncomputable section

namespace Cert.GramSpec

open Finset Idealize.ShloMosaic Idealize.ShloMosaic.ValueIdx

/-- The array's shape: 512 rows of 65536 columns. -/
abbrev SX : Shape := ⟨2, ![512, 65536]⟩

/-- Entry (p, k) of the array by a natural column number. -/
def col (X : SX.Idx → EReal) (p : Fin 512) (k : ℕ) : EReal := if h : k < 65536 then X (ix2 p ⟨k, h⟩) else 0

/-- The k-th product of rows p and q. -/
def pairProd (X : SX.Idx → EReal) (p q : Fin 512) (k : ℕ) : EReal := col X p k * col X q k

theorem col_of_lt (X : SX.Idx → EReal) (p : Fin 512) (k : ℕ) (h : k < 65536) : col X p k = X (ix2 p ⟨k, h⟩) := dif_pos h

/-- The Gram matrix's entry (p, q): the sum over all 65536 columns. -/
def gram (X : SX.Idx → EReal) (p q : Fin 512) : EReal := ∑ k ∈ range (16 * 4096), pairProd X p q k

/-- A sum over the 65536 columns by their `Fin` numbers is that entry. -/
theorem sum_cols (X : SX.Idx → EReal) (p q : Fin 512) :
    ∑ k : Fin 65536, X (ix2 p k) * X (ix2 q k) = gram X p q := by
  unfold gram
  rw [show (16 * 4096 : ℕ) = 65536 from rfl, ← Fin.sum_univ_eq_sum_range (fun k => pairProd X p q k) 65536]
  refine sum_congr rfl fun k _ => ?_
  unfold pairProd
  rw [col_of_lt X p k.val k.isLt, col_of_lt X q k.val k.isLt]

/-- A sum over the 4096 columns of block n (n < 16), each read at column n·4096 + k of the array, is the block sum. -/
theorem sum_block (X : SX.Idx → EReal) (p q : Fin 512) (n : ℕ) (hn : n < 16)
    (x : (⟨2, ![512, 4096]⟩ : Shape).Idx → EReal)
    (hx : ∀ (r : Fin 512) (k : Fin 4096), x (ix2 r k) = X (ix2 r ⟨n * 4096 + k.val, by have := k.isLt; omega⟩)) :
    ∑ k : Fin 4096, x (ix2 p k) * x (ix2 q k) = blockSum 4096 (pairProd X p q) n := by
  unfold blockSum
  rw [← Fin.sum_univ_eq_sum_range (fun k => pairProd X p q (n * 4096 + k)) 4096]
  refine sum_congr rfl fun k _ => ?_
  unfold pairProd
  have hk : n * 4096 + k.val < 65536 := by have := k.isLt; omega
  rw [hx p k, hx q k, col_of_lt X p _ hk, col_of_lt X q _ hk]

end Cert.GramSpec

end
-- ==== Proof.GramAcc.lean ====
/-
  What the accumulator holds after each grid point.

  The grid's 16 points are numbered n = 8·h + r (h the half, r the step inside it), and the block fetched at point n
  is block n of the array: columns n·4096, …, n·4096 + 4095 of every row.  By induction on the point, after point n
  the accumulator's entry (p, q) is the sum of the block sums of X(p,·) · X(q,·) over the blocks 8h, …, 8h + r: the
  first step of a half starts from zero, every later step adds its block to what the step before left.
-/
import proofs.«109532_j18614388261662_1_alg».proof.Proof.GramStep
import proofs.«109532_j18614388261662_1_alg».proof.Proof.GramCases
import proofs.«109532_j18614388261662_1_alg».proof.Proof.GramColumns

noncomputable section

open Idealize.ShloMosaic Idealize.ShloMosaic.TcCoe Idealize.SL.Sem Idealize.ShloMosaic.ValueIdx
open Idealize.ShloMosaic.Pipeline (Dat)

namespace Cert.KernelIdeal.GramAcc

open Cert.KernelIdeal Cert.KernelIdeal.Gen Cert.GramSpec

/-- The input window's block at point t is block t along the columns, and the whole of the rows. -/
theorem in_index : ∀ t : Fin cfg0.N, win0_0.index t 0 = 0 ∧ win0_0.index t 1 = t.val :=
  (by decide +kernel : ∀ t : Fin grid0.N, win0_0.index t 0 = 0 ∧ win0_0.index t 1 = t.val)

section AnyF
variable {F : FTy → Type} [FloatOps F]
variable (m : (ℓ : Loc nD τ sig) → Buf (Elt F) ℓ)

/-- Entry (p, k) of the block fetched at point t is entry (p, t·4096 + k) of the array the region finds. -/
theorem iblk_apply (c : Dev nD) (t : Fin cfg0.N) (p : Fin 512) (k : Fin 4096) :
    (iblk m c 0 t : Vec F S512x4096 .f32) (ix2 p k)
      = V m c main_v1 (ix2 p ⟨t.val * 4096 + k.val, by
          have h1 := t.isLt; have h2 : cfg0.N = 16 := N_0; have := k.isLt; omega⟩) := by
  have hi := in_index t
  unfold iblk
  rw [View.read_apply]
  show V m c main_v1 _ = V m c main_v1 _
  congr 1
  funext a
  apply Fin.ext
  match a with
  | ⟨0, _⟩ => show win0_0.index t 0 * 512 + 1 * p.val = p.val; rw [hi.1]; omega
  | ⟨1, _⟩ => show win0_0.index t 1 * 4096 + 1 * k.val = t.val * 4096 + k.val; rw [hi.2]; omega

end AnyF

variable (m : (ℓ : Loc nD τ sig) → Buf (Elt Ideal) ℓ)

/-- The array the region finds (the argument reshaped to 512 × 65536), as a function to the extended reals. -/
abbrev X (c : Dev nD) : SX.Idx → EReal := V m c main_v1

/-- The running sums: entry (p, q) after point n. -/
def accAt (c : Dev nD) (n : ℕ) : Vec Ideal S512x512 .f32 :=
  fun j => accSum 4096 (pairProd (X m c) (j 0) (j 1)) (n / 8) (n % 8)

/-- One step at point t over an accumulator `a`: entry (p, q) grows by block t's sum. -/
theorem step_at (c : Dev nD) (t : Fin cfg0.N) (a : Vec Ideal S512x512 .f32) (j : S512x512.Idx) :
    k0_pay2 (F := Ideal) (iblk m c 0 t) a j = a j + blockSum 4096 (pairProd (X m c) (j 0) (j 1)) t.val := by
  have hN : t.val < 16 := lt_of_lt_of_eq t.isLt (show cfg0.N = 16 from N_0)
  obtain ⟨p, q, rfl⟩ : ∃ (p : Fin 512) (q : Fin 512), j = ix2 p q := ⟨j 0, j 1, eq_ix2 j⟩
  refine (GramStep.step_apply (iblk m c 0 t) a p q).trans ?_
  exact congrArg (a (ix2 p q) + ·) (sum_block (X m c) p q t.val hN (iblk m c 0 t) (fun r k => iblk_apply m c t r k))

/-- What the point before point t left in the accumulator. -/
abbrev prevAcc (c : Dev nD) (t : Fin cfg0.N) : Vec Ideal S512x512 .f32 :=
  (outsAt0 m c (t.val - 1) (Nat.lt_of_le_of_lt (Nat.sub_le _ _) t.isLt)).2

/-- The components of a pair known by an equation. -/
theorem snd_of_eq {α β : Type} {x : α × β} {a : α} {b : β} (h : x = (a, b)) : x.2 = b := by rw [h]
theorem fst_of_eq {α β : Type} {x : α × β} {a : α} {b : β} (h : x = (a, b)) : x.1 = a := by rw [h]

/-- At the first step of a half the accumulator ends at one step over zero. -/
theorem first_at (c : Dev nD) (t : Fin cfg0.N) (h0 : t.val % 8 = 0) (h1 : ¬t.val % 8 = 7) :
    (outsAt0 m c t.val t.isLt).2 = k0_pay2 (F := Ideal) (iblk m c 0 t) (k0_pay1 (F := Ideal)) :=
  (snd_of_eq (outsAt0_A m c t h0 h1)).trans
    (GramCases.acc_A c (grid0.coords t) (ms0_0 t) (hs0_0 t) (ms0_1 t) (hs0_1 t) scM0_0 (Memref.isWhole_whole _)
      ((hcond0_0 t).mpr h0) (fun h => h1 ((hcond0_1 t).mp h)) (iblk m c 0 t))

/-- At a middle step it ends at one step over what the point before left. -/
theorem middle_at (c : Dev nD) (t : Fin cfg0.N) (h0 : ¬t.val % 8 = 0) (h1 : ¬t.val % 8 = 7) :
    (outsAt0 m c t.val t.isLt).2 = k0_pay2 (F := Ideal) (iblk m c 0 t) (prevAcc m c t) :=
  (snd_of_eq (outsAt0_B m c t h0 h1)).trans
    (GramCases.acc_B c (grid0.coords t) (ms0_0 t) (hs0_0 t) (ms0_1 t) (hs0_1 t) scM0_0 (Memref.isWhole_whole _)
      (fun h => h0 ((hcond0_0 t).mp h)) (fun h => h1 ((hcond0_1 t).mp h)) (iblk m c 0 t) (prevAcc m c t))

/-- At the last step of a half likewise, -/
theorem last_at (c : Dev nD) (t : Fin cfg0.N) (h0 : ¬t.val % 8 = 0) (h1 : t.val % 8 = 7) :
    (outsAt0 m c t.val t.isLt).2 = k0_pay2 (F := Ideal) (iblk m c 0 t) (prevAcc m c t) :=
  (snd_of_eq (outsAt0_C m c t h0 h1)).trans
    (GramCases.acc_C c (grid0.coords t) (ms0_0 t) (hs0_0 t) (ms0_1 t) (hs0_1 t) scM0_0 (Memref.isWhole_whole _)
      (fun h => h0 ((hcond0_0 t).mp h)) ((hcond0_1 t).mpr h1) (iblk m c 0 t) (prevAcc m c t))

/-- and the output block ends at the copy of that. -/
theorem last_out_at (c : Dev nD) (t : Fin cfg0.N) (h0 : ¬t.val % 8 = 0) (h1 : t.val % 8 = 7) :
    (outsAt0 m c t.val t.isLt).1 = k0_pay3 (F := Ideal) (k0_pay2 (F := Ideal) (iblk m c 0 t) (prevAcc m c t)) :=
  (fst_of_eq (outsAt0_C m c t h0 h1)).trans
    (GramCases.out_C c (grid0.coords t) (ms0_0 t) (hs0_0 t) (ms0_1 t) (hs0_1 t) scM0_0 (Memref.isWhole_whole _)
      (fun h => h0 ((hcond0_0 t).mp h)) ((hcond0_1 t).mpr h1) (iblk m c 0 t) (prevAcc m c t))

/-- THE INVARIANT: after point n the accumulator holds the running sums. -/
theorem acc_eq (c : Dev nD) : ∀ (n : ℕ) (h : n < cfg0.N), (outsAt0 m c n h).2 = accAt m c n
  | 0, h => by
    refine (first_at m c ⟨0, h⟩ (Nat.zero_mod 8) (by dsimp only; omega)).trans ?_
    funext j
    rw [step_at m c ⟨0, h⟩, GramStep.reset_apply, zero_add]
    exact (accSum_zero 4096 (pairProd (X m c) (j 0) (j 1)) 0).symm
  | n + 1, h => by
    have hN : n + 1 < 16 := lt_of_lt_of_eq h (show cfg0.N = 16 from N_0)
    by_cases h0 : (n + 1) % 8 = 0
    · have h1 : ¬(n + 1) % 8 = 7 := by omega
      refine (first_at m c ⟨n + 1, h⟩ h0 h1).trans ?_
      funext j
      rw [step_at m c ⟨n + 1, h⟩, GramStep.reset_apply, zero_add]
      show blockSum 4096 (pairProd (X m c) (j 0) (j 1)) (n + 1)
        = accSum 4096 (pairProd (X m c) (j 0) (j 1)) ((n + 1) / 8) ((n + 1) % 8)
      rw [h0, accSum_zero, show 8 * ((n + 1) / 8) = n + 1 from by omega]
    · have hd : (n + 1) / 8 = n / 8 := by omega
      have hr : (n + 1) % 8 = n % 8 + 1 := by omega
      have hb : 8 * (n / 8) + (n % 8 + 1) = n + 1 := by omega
      have ih : prevAcc m c ⟨n + 1, h⟩ = accAt m c n := acc_eq c n (Nat.lt_of_succ_lt h)
      have key : (outsAt0 m c (n + 1) h).2 = k0_pay2 (F := Ideal) (iblk m c 0 ⟨n + 1, h⟩) (prevAcc m c ⟨n + 1, h⟩) := by
        by_cases h1 : (n + 1) % 8 = 7
        · exact last_at m c ⟨n + 1, h⟩ h0 h1
        · exact middle_at m c ⟨n + 1, h⟩ h0 h1
      rw [key, ih]
      funext j
      rw [step_at m c ⟨n + 1, h⟩]
      show accSum 4096 (pairProd (X m c) (j 0) (j 1)) (n / 8) (n % 8) + blockSum 4096 (pairProd (X m c) (j 0) (j 1)) (n + 1)
        = accSum 4096 (pairProd (X m c) (j 0) (j 1)) ((n + 1) / 8) ((n + 1) % 8)
      rw [hd, hr, accSum_succ, hb]

/-- At the last step of a half the output block holds the accumulator's running sums, under a leading unit axis. -/
theorem out_eq (c : Dev nD) (t : Fin cfg0.N) (h7 : t.val % 8 = 7) (j : S1x512x512.Idx) :
    (outsAt0 m c t.val t.isLt).1 j = accAt m c t.val (ix2 (j 1) (j 2)) := by
  have h0 : ¬t.val % 8 = 0 := by omega
  rw [last_out_at m c t h0 h7, GramStep.copy_apply, ← last_at m c t h0 h7, acc_eq m c t.val t.isLt]

end Cert.KernelIdeal.GramAcc

end
-- ==== Proof.GramArray.lean ====
/-
  The kernel's output array after the run.

  The output is a 2 × 512 × 512 array; its slab h is written back once, after the last step of half h (point 8h + 7),
  from the output block, which then holds the finished accumulator of that half.  The two slabs tile the array, so
  after the run entry (h, p, q) is the sum of the eight block sums of X(p,·) · X(q,·) of half h.
-/
import proofs.«109532_j18614388261662_1_alg».proof.Proof.GramAcc

noncomputable section

open Idealize.ShloMosaic Idealize.ShloMosaic.TcCoe Idealize.SL.Sem Idealize.ShloMosaic.ValueIdx
open Idealize.ShloMosaic.Pipeline (Dat)

namespace Cert.KernelIdeal.GramArray

open Cert.KernelIdeal Cert.KernelIdeal.Gen Cert.GramSpec Cert.KernelIdeal.GramAcc

variable (m : (ℓ : Loc nD τ sig) → Buf (Elt Ideal) ℓ)

/-- The output window's block at point t is slab t / 8, whole in the other two axes. -/
theorem out_index : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- The two halves' finished accumulators, as contents of the output array: entry (h, p, q). -/
def halves (c : Dev nD) : S2x512x512.Idx → EReal :=
  fun i => accSum 4096 (pairProd (X m c) (i 1) (i 2)) (i 0).val 7

/-- What a writing-back point writes is its slab of `halves`. -/
theorem flushed_eq (c : Dev nD) (t : Fin cfg0.N) (hf : (cfg0.win 1).flush t = true) :
    (dats m 0 c).flushed 1 t = ((cfg0.win 1).blk t).view.read (Elt Ideal) (halves m c) := by
  have h7 : t.val % 8 = 7 := (flush0_1 t).mp hf
  obtain ⟨e0, e1, e2⟩ := out_index t
  show (cfg0.win 1).cut (grid0.coords t) ((dats m 0 c).after 1 t) = _
  rw [after0_1]
  funext j
  show (outsAt0 m c t.val t.isLt).1 j = halves m c (((cfg0.win 1).blk t).view.emb j)
  rw [out_eq m c t h7 j]
  have hj0 : (j 0).val < 1 := (j 0).isLt
  have k0 : ((((cfg0.win 1).blk t).view.emb j) 0).val = t.val / 8 := by
    show win0_1.index t 0 * 1 + 1 * (j 0).val = t.val / 8; omega
  have k1 : (((cfg0.win 1).blk t).view.emb j) 1 = j 1 := Fin.ext (by
    show win0_1.index t 1 * 512 + 1 * (j 1).val = (j 1).val; omega)
  have k2 : (((cfg0.win 1).blk t).view.emb j) 2 = j 2 := Fin.ext (by
    show win0_1.index t 2 * 512 + 1 * (j 2).val = (j 2).val; omega)
  show accSum 4096 (pairProd (X m c) (j 1) (j 2)) (t.val / 8) (t.val % 8)
    = accSum 4096 (pairProd (X m c) ((((cfg0.win 1).blk t).view.emb j) 1) ((((cfg0.win 1).blk t).view.emb j) 2))
        ((((cfg0.win 1).blk t).view.emb j) 0).val 7
  rw [k0, k1, k2, h7]

/-- The point that writes slab h back: the last step of half h. -/
def lastOf (h : Fin 2) : Fin cfg0.N := ⟨8 * h.val + 7, by rw [show cfg0.N = 16 from N_0]; have := h.isLt; omega⟩

/-- Every entry of the output array lies in the slab some writing-back point writes. -/
theorem covered (i : S2x512x512.Idx) :
    ∃ t : Fin cfg0.N, (cfg0.win 1).flush t = true ∧ i ∈ ((cfg0.win 1).blk t).view.set := by
  have hi0 : (i 0).val < 2 := (i 0).isLt
  have hi1 : (i 1).val < 512 := (i 1).isLt
  have hi2 : (i 2).val < 512 := (i 2).isLt
  refine ⟨lastOf ⟨(i 0).val, hi0⟩, (flush0_1 _).mpr (by show (8 * (i 0).val + 7) % 8 = 7; omega), ?_⟩
  obtain ⟨e0, e1, e2⟩ := out_index (lastOf ⟨(i 0).val, hi0⟩)
  have e0' : win0_1.index (lastOf ⟨(i 0).val, hi0⟩) 0 = (i 0).val := by
    rw [e0]; show (8 * (i 0).val + 7) / 8 = (i 0).val; omega
  show i ∈ ((View.whole main_v2).slice (win0_1.rect (lastOf ⟨(i 0).val, hi0⟩))).set
  rw [View.set_slice_whole, Rect.mem_set_unit]
  intro a
  match a with
  | ⟨0, _⟩ =>
    show win0_1.index (lastOf ⟨(i 0).val, hi0⟩) 0 * 1 ≤ (i 0).val
      ∧ (i 0).val < win0_1.index (lastOf ⟨(i 0).val, hi0⟩) 0 * 1 + 1
    omega
  | ⟨1, _⟩ =>
    show win0_1.index (lastOf ⟨(i 0).val, hi0⟩) 1 * 512 ≤ (i 1).val
      ∧ (i 1).val < win0_1.index (lastOf ⟨(i 0).val, hi0⟩) 1 * 512 + 512
    omega
  | ⟨2, _⟩ =>
    show win0_1.index (lastOf ⟨(i 0).val, hi0⟩) 2 * 512 ≤ (i 2).val
      ∧ (i 2).val < win0_1.index (lastOf ⟨(i 0).val, hi0⟩) 2 * 512 + 512
    omega

/-- THE OUTPUT ARRAY after the run holds the two halves' finished accumulators. -/
theorem final (c : Dev nD) : (dats m 0 c).arrAt 1 cfg0.N = halves m c :=
  (dats m 0 c).arrAt_eq_of_cover 1 (halves m c) (flushed_eq m c) covered

end Cert.KernelIdeal.GramArray

end
-- ==== Proof.GramHost.lean ====
/-
  The kernel program around its region, and its run with the result named.

  Before the region the host reshapes the argument twice, to 512 × 65536: that is the array X the region reads.
  After the region the host takes the two slabs of the 2 × 512 × 512 output, drops their unit axis, adds them entry
  by entry and puts two unit axes in front.  So entry (0, 0, p, q) of the result is the first half's finished
  accumulator plus the second half's at (p, q) — the sum of X(p,k) · X(q,k) over all 65536 columns, by the block law.
-/
import proofs.«109532_j18614388261662_1_alg».proof.Proof.GramArray
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.GramHost

open Cert.KernelIdeal Cert.KernelIdeal.Gen Cert.GramSpec Cert.KernelIdeal.GramAcc Cert.KernelIdeal.GramArray

variable (m : (ℓ : Loc nD τ sig) → Buf (Elt Ideal) ℓ) (ρ : Dev nD → PrngReg)

/-- The array the region reads is the argument reshaped twice. -/
theorem X_eq (c : Dev nD) :
    X m c = shapeCast S512x65536 (shapeCast S512x256x256 (m ((c : Thread nD τ).loc main_arg0))
      shapeCasts_S1x512x256x256_S512x256x256) shapeCasts_S512x256x256_S512x65536 := by
  show StableHlo.after hostOps0 (fun b => m (c, b)) (Proc.devRef .tc main_v1) = _
  after_results
  rfl

/-- Slab h of a 2 × 512 × 512 array with its unit axis dropped, read at (p, q). -/
theorem slab_apply {α : Type} (x : S2x512x512.Idx → α) (h : Fin 2) (off : Fin 3 → Nat) (hoff : off = ![h.val, 0, 0])
    (hs : S2x512x512.Slices off S1x512x512) (p q : Fin 512) :
    shapeCast S512x512 (extractStridedSlice S1x512x512 off x hs) shapeCasts_S1x512x512_S512x512 (ix2 p q)
      = x (ix3 h p q) := by
  subst hoff
  rw [shapeCast_apply _ shapeCasts_S1x512x512_S512x512 (ix2 p q) (ix3 (0 : Fin 1) p q) (by
    rewrite [Shape.rowMajor_val_three, Shape.rowMajor_val_two]
    show (0 * 512 + p.val) * 512 + q.val = p.val * 512 + q.val; omega)]
  exact extractStridedSlice_apply _ x hs (ix3 (0 : Fin 1) p q) (ix3 h p q) (fun a => by
    match a with
    | ⟨0, _⟩ => show h.val = h.val + 0; omega
    | ⟨1, _⟩ => show p.val = 0 + p.val; omega
    | ⟨2, _⟩ => show q.val = 0 + q.val; omega)

/-- The host's lines after the region, as one function of the output array. -/
def tail (y : FVec Ideal S2x512x512 .f32) : FVec Ideal S1x1x512x512 .f32 :=
  broadcastInDim S1x1x512x512 ![2, 3] bcast_S512x512_S1x1x512x512_2_3
    (addf (F := Ideal) (φ := .f32)
      (shapeCast S512x512 (extractStridedSlice S1x512x512 ![0, 0, 0] y slices_S2x512x512_S1x512x512_0_0_0) shapeCasts_S1x512x512_S512x512)
      (shapeCast S512x512 (extractStridedSlice S1x512x512 ![1, 0, 0] y slices_S2x512x512_S1x512x512_1_0_0) shapeCasts_S1x512x512_S512x512))

/-- Entry (·, ·, p, q) of the tail: slab 0 plus slab 1 at (p, q). -/
theorem tail_apply (y : FVec Ideal S2x512x512 .f32) (a b : Fin 1) (p q : Fin 512) :
    tail y (ix4 a b p q) = y (ix3 (0 : Fin 2) p q) + y (ix3 (1 : Fin 2) p q) := by
  unfold tail
  rw [broadcastInDim_apply _ bcast_S512x512_S1x1x512x512_2_3 _ (ix4 a b p q) (ix2 p q) (fun d => match d with
    | ⟨0, _⟩ => by show p.val = if (512 : Nat) = 1 then 0 else p.val; rw [if_neg (by decide)]
    | ⟨1, _⟩ => by show q.val = if (512 : Nat) = 1 then 0 else q.val; rw [if_neg (by decide)])]
  rw [addf_apply, slab_apply y 0 ![0, 0, 0] rfl, slab_apply y 1 ![1, 0, 0] rfl]

/-- The result the kernel program ends with: the Gram matrix of X under two leading unit axes. -/
def result (c : Dev nD) : S1x1x512x512.Idx → EReal :=
  fun i => gram (X m c) (i 2) (i 3)

/-- The tail of the two halves' accumulators is that result: the block law. -/
theorem tail_halves (c : Dev nD) : tail (halves m c) = result m c := by
  funext i
  obtain ⟨a, b, p, q, rfl⟩ : ∃ (a b : Fin 1) (p q : Fin 512), i = ix4 a b p q := ⟨i 0, i 1, i 2, i 3, eq_ix4 i⟩
  rw [tail_apply]
  show accSum 4096 (pairProd (X m c) p q) 0 7 + accSum 4096 (pairProd (X m c) p q) 1 7 = gram (X m c) p q
  exact halves_eq_total 4096 _

/-- What the host's last line leaves, read off the frame run's account of the lines after the region. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  have e := (Pipeline.withArrays_arr spec0 launch0.win.arr_inj c (V0 m c)
    (fun w => (dats m 0 c).arrAt w (cfgs 0).N) 1).trans (final m c)
  exact (congrArg tail e).trans (tail_halves m c)

/-- THE KERNEL PROGRAM'S RUN: every weakly fair execution terminates with the result array at the Gram matrix of
    the reshaped argument and the argument unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0) :=
  (θ_run defs _ _).mono (fun _ h c =>
      ⟨((h c).2 main_v8 (Pipeline.mem_restRefs_of main_v8 (by decide) (by decide))).trans (tail_eq m c),
       ((h c).2 main_arg0 (Pipeline.mem_restRefs_of main_arg0 (by decide) (by decide))).trans (W_main_arg0 m (dats m) c)⟩)
    (run_main m ρ)

end Cert.KernelIdeal.GramHost

end
-- ==== Proof.GramRef.lean ====
/-
  The reference program, read entry by entry over the extended reals.

  The reference reshapes the argument twice to the 512 × 65536 array X, transposes it, contracts X with the transpose
  along the 65536 columns and puts two unit axes in front: entry (0, 0, p, q) of its result is the sum over all
  columns k of X(p,k) · Xᵀ(k,q) = X(p,k) · X(q,k).
-/
import proofs.«109532_j18614388261662_1_alg».proof.Proof.Gen.ReferenceIdeal.Read
import proofs.«109532_j18614388261662_1_alg».proof.Proof.GramColumns

noncomputable section

open Idealize.ShloMosaic Idealize.ShloMosaic.ValueIdx

namespace Cert.ReferenceIdeal.GramRef

open Cert.ReferenceIdeal Cert.ReferenceIdeal.Gen Cert.ReferenceIdeal.Read Cert.GramSpec

/-- The reference's 512 × 65536 array is the argument reshaped twice. -/
theorem X_eq (x0 : (⟨S1x512x256x256, .f32⟩ : BufTy).Contents (Elt Ideal)) :
    val_main_v1 (F := Ideal) x0 = shapeCast S512x65536 (shapeCast S512x256x256 x0
      shapeCasts_S1x512x256x256_S512x256x256) shapeCasts_S512x256x256_S512x65536 := rfl

/-- The reference's result at an index is the Gram matrix's entry at the index's last two coordinates. -/
theorem result_apply (x0 : (⟨S1x512x256x256, .f32⟩ : BufTy).Contents (Elt Ideal)) (i : S1x1x512x512.Idx) :
    val_main_v4 (F := Ideal) x0 i = gram (val_main_v1 (F := Ideal) x0) (i 2) (i 3) := by
  rw [val_main_v4_apply, val_main_v3_apply]
  refine Eq.trans ?_ (sum_cols (val_main_v1 (F := Ideal) x0) (i 2) (i 3))
  refine Finset.sum_congr rfl fun k _ => ?_
  rw [val_main_v2_apply]
  have el : lidx_main_v3 (idx_main_v4 i) k = ix2 (i 2) k := funext fun a => Fin.ext (by
    match a with
    | ⟨0, _⟩ => rfl
    | ⟨1, _⟩ => rfl)
  have er : idx_main_v2 (ridx_main_v3 (idx_main_v4 i) k) = ix2 (i 3) k := funext fun a => Fin.ext (by
    match a with
    | ⟨0, _⟩ => rfl
    | ⟨1, _⟩ => rfl)
  rw [el, er]
  rfl

end Cert.ReferenceIdeal.GramRef

end
-- ==== Proof.lean ====
/-
  The Gram matrix of the rows of x[0] reshaped to 512 × 65536: a kernel that cuts the 65536 columns into two halves
  of eight blocks of 4096, accumulates each half's block products X_b · X_bᵀ one block at a time into a 512 × 512
  accumulator that starts at zero, and adds the two halves on the host, against the reference X · Xᵀ contracted over
  all 65536 columns at once.

  Over the extended reals both results hold, at (0, 0, p, q), the sum over all columns k of X(p,k) · X(q,k): a change
  of float format is the identity, the block product into zeros is the plain sum over the block's columns, and the
  kernel's grouping (sixteen blocks, two halves, zero first) is the reference's by commutativity and associativity of
  addition and 0 + a = a alone — which hold for every extended real, so the finiteness of the input is never used.
  The ideal pass rewrote nothing, so the idealization is the program's own text read at the ideal instance.

  The three frames are the generated ones (the reference's is its generated run with the result dropped).
-/
import proofs.«109532_j18614388261662_1_alg».proof.Defs
import proofs.«109532_j18614388261662_1_alg».proof.Proof.Gen.Kernel
import proofs.«109532_j18614388261662_1_alg».proof.Proof.Gen.Kernel.Skeleton
import proofs.«109532_j18614388261662_1_alg».proof.Proof.Gen.Kernel.Launch
import proofs.«109532_j18614388261662_1_alg».proof.Proof.Gen.Kernel.Points
import proofs.«109532_j18614388261662_1_alg».proof.Proof.Gen.Kernel.Frame
import proofs.«109532_j18614388261662_1_alg».proof.Proof.Gen.KernelIdeal
import proofs.«109532_j18614388261662_1_alg».proof.Proof.Gen.KernelIdeal.Skeleton
import proofs.«109532_j18614388261662_1_alg».proof.Proof.Gen.KernelIdeal.Launch
import proofs.«109532_j18614388261662_1_alg».proof.Proof.Gen.KernelIdeal.Points
import proofs.«109532_j18614388261662_1_alg».proof.Proof.Gen.KernelIdeal.Frame
import proofs.«109532_j18614388261662_1_alg».proof.Proof.Gen.ReferenceIdeal
import proofs.«109532_j18614388261662_1_alg».proof.Proof.Gen.Pre_finite_inputs
import proofs.«109532_j18614388261662_1_alg».proof.Proof.Gen.ReferenceIdeal.Run
import proofs.«109532_j18614388261662_1_alg».proof.Proof.Gen.ReferenceIdeal.Read
import proofs.«109532_j18614388261662_1_alg».proof.Proof.GramHost
import proofs.«109532_j18614388261662_1_alg».proof.Proof.GramRef
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both programs end with the Gram matrix of the same reshaped argument: the kernel's run names its result so
    (the accumulation over the grid and the host's sum of the two halves), the reference's result reads so entry by
    entry, and the two reshaped arrays are one term of arguments that agree. -/
theorem algebraic : Cert.algebraic_KernelIdeal_ReferenceIdeal := by
  intro m ρ m' ρ' _ hagree
  refine ⟨fun c => Cert.KernelIdeal.GramHost.result m c, Cert.KernelIdeal.GramHost.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, hagree c]
  funext i
  rw [Cert.ReferenceIdeal.GramRef.result_apply, Cert.ReferenceIdeal.GramRef.X_eq]
  show _ = Cert.GramSpec.gram (Cert.KernelIdeal.GramAcc.X m c) (i 2) (i 3)
  rw [Cert.KernelIdeal.GramHost.X_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
